-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S4000x16 : Shape := ⟨2, ![4000, 16]⟩
abbrev S4000x1 : Shape := ⟨2, ![4000, 1]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S4000x7 : Shape := ⟨2, ![4000, 7]⟩
abbrev S1x7 : Shape := ⟨2, ![1, 7]⟩

abbrev nBuf : Space → Nat
  | .hbm => 106
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000x16, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S3300000x1, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x7, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S_, .i32⟩
  | .hbm, ⟨79, _⟩ => ⟨S3300000, .i32⟩
  | .hbm, ⟨80, _⟩ => ⟨S3300000, .i1⟩
  | .hbm, ⟨81, _⟩ => ⟨S_, .i32⟩
  | .hbm, ⟨82, _⟩ => ⟨S3300000, .i32⟩
  | .hbm, ⟨83, _⟩ => ⟨S3300000, .i32⟩
  | .hbm, ⟨84, _⟩ => ⟨S3300000, .i32⟩
  | .hbm, ⟨85, _⟩ => ⟨S3300000x1, .i32⟩
  | .hbm, ⟨86, _⟩ => ⟨S3300000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S3300000, .f32⟩
  | .hbm, ⟨97, _⟩ => ⟨S3300000x1, .f32⟩
  | .hbm, ⟨98, _⟩ => ⟨S3300000x7, .f32⟩
  | .hbm, ⟨99, _⟩ => ⟨S_, .f32⟩
  | .hbm, ⟨100, _⟩ => ⟨S100000x7, .f32⟩
  | .hbm, ⟨101, _⟩ => ⟨S3300000x1, .i32⟩
  | .hbm, ⟨102, _⟩ => ⟨S100000x7, .f32⟩
  | .hbm, ⟨103, _⟩ => ⟨S1x7, .f32⟩
  | .hbm, ⟨104, _⟩ => ⟨S100000x7, .f32⟩
  | .hbm, ⟨105, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S4000x16, .f32⟩
  | .local _ .vmem, ⟨6, _⟩ => ⟨S4000x16, .f32⟩
  | .local _ .vmem, ⟨7, _⟩ => ⟨S4000x1, .f32⟩
  | .local _ .vmem, ⟨8, _⟩ => ⟨S4000x1, .f32⟩
  | .local _ .vmem, ⟨9, _⟩ => ⟨S4000x16, .f32⟩
  | .local _ .vmem, ⟨10, _⟩ => ⟨S4000x16, .f32⟩
  | .local _ .vmem, ⟨11, _⟩ => ⟨S10000x16, .f32⟩
  | .local _ .vmem, ⟨12, _⟩ => ⟨S10000x16, .f32⟩
  | .local _ .vmem, ⟨13, _⟩ => ⟨S16x7, .f32⟩
  | .local _ .vmem, ⟨14, _⟩ => ⟨S10000x7, .f32⟩
  | .local _ .vmem, ⟨15, _⟩ => ⟨S10000x7, .f32⟩
  | .local _ .vmem, ⟨16, _⟩ => ⟨S4000x7, .f32⟩
  | .local _ .vmem, ⟨17, _⟩ => ⟨S4000x7, .f32⟩
  | .local _ .vmem, ⟨18, _⟩ => ⟨S4000x1, .f32⟩
  | .local _ .vmem, ⟨19, _⟩ => ⟨S4000x1, .f32⟩
  | .local _ .vmem, ⟨20, _⟩ => ⟨S4000x7, .f32⟩
  | .local _ .vmem, ⟨21, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call1_cst : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![825], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  inb_S4000x7_S4000x7_0_0 : ∀ a, (![0, 0] : Fin 2 → Nat) a + S4000x7.size a ≤ S4000x7.size a
  h_S4000x7 : 0 < S4000x7.numel
  shapeCasts_S4000x7_S4000x7 : S4000x7.ShapeCasts S4000x7
  broadcasts_S4000x1_S4000x7 : S4000x1.Broadcasts S4000x7
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  gather_S100000_S3300000x1_S3300000_n_0_n_n_0_1_1_wf : GatherDims.WF S100000 S3300000x1 S3300000 [] [0] [] [0] [] 1 ![1]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S3300000x16.size a
  hwx1_0 : ∀ i : grid1.Coords, EltTy.bits .f32 = 32 ∨ (Rect.block (s := S3300000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S3300000x1.size a
  hwx1_1 : ∀ i : grid1.Coords, EltTy.bits .f32 = 32 ∨ (Rect.block (s := S3300000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S3300000x16.size a
  hwx1_2 : ∀ i : grid1.Coords, EltTy.bits .f32 = 32 ∨ (Rect.block (s := S3300000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x7.size a ≤ S3300000x7.size a
  hwx3_0 : ∀ i : grid3.Coords, EltTy.bits .f32 = 32 ∨ (Rect.block (s := S3300000x7) S4000x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S3300000x1.size a
  hwx3_1 : ∀ i : grid3.Coords, EltTy.bits .f32 = 32 ∨ (Rect.block (s := S3300000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x7.size a ≤ S3300000x7.size a
  hwx3_2 : ∀ i : grid3.Coords, EltTy.bits .f32 = 32 ∨ (Rect.block (s := S3300000x7) S4000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S4000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S4000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 125
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x7, .f32⟩
  | .hbm, ⟨115, _⟩ => ⟨S3300000x1, .f32⟩
  | .hbm, ⟨116, _⟩ => ⟨S3300000x7, .f32⟩
  | .hbm, ⟨117, _⟩ => ⟨S3300000x7, .f32⟩
  | .hbm, ⟨118, _⟩ => ⟨S_, .f32⟩
  | .hbm, ⟨119, _⟩ => ⟨S100000x7, .f32⟩
  | .hbm, ⟨120, _⟩ => ⟨S3300000x1, .i32⟩
  | .hbm, ⟨121, _⟩ => ⟨S100000x7, .f32⟩
  | .hbm, ⟨122, _⟩ => ⟨S1x7, .f32⟩
  | .hbm, ⟨123, _⟩ => ⟨S100000x7, .f32⟩
  | .hbm, ⟨124, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KRun.lean ====
/-
  The kernel's run with its result named.

  The program is eleven segments: seven stretches of host operations and four kernel regions.  The contents of
  every buffer at each boundary is a fold through the program from the launch memory; the last boundary's
  contents is `W11`.  Every weakly fair execution terminates with every unscoped buffer at `W11`; in
  particular the result buffer, and each argument, which no segment writes.
-/
import proofs.«111704_j90881507983627_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at the result buffer and at the six arguments: the result ends at the last boundary's
    contents, each argument as launched. -/
theorem run_named : θ_run defs (onTc (τ := τ) (main (F := F))) ⟨m, fun _ => 0, ρ⟩ (fun r => ∀ c : Dev nD,
      r.2.mem ((c.tc : Thread nD τ).loc main_v77) = W11 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v77 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)
    (run_all m ρ)

end Cert.KernelIdeal.KRun

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibRowScale.lean ====
/-
  Rows of an array scaled by a column.

  For an n×f array `a` and an n×1 column `b` of extended reals, the array whose entry (p, q) is a (p, q) · b (p, 0).
  The accelerator spells it as the elementwise product of `a` with the column broadcast along the second axis; entry
  (p, q) of the result reads row p of both operands only, so a block of rows of the result is the same function of
  the same block of rows of the operands.
-/
import Idealize.ShloMosaic.Lib.Pipeline.Value
import Idealize.ShloMosaic.Lib.ValueIdx

noncomputable section

namespace Cert.Lib.RowScale

open Idealize.ShloMosaic Idealize.ShloMosaic.ValueIdx

/-- Entry (p, q) is a (p, q) · b (p, 0). -/
def scaleRows {n f : Nat} (a : (⟨2, ![n, f]⟩ : Shape).Idx → EReal) (b : (⟨2, ![n, 1]⟩ : Shape).Idx → EReal) :
    (⟨2, ![n, f]⟩ : Shape).Idx → EReal :=
  fun i => a i * b (ix2 (i 0) (0 : Fin 1))

theorem scaleRows_apply {n f : Nat} (a : (⟨2, ![n, f]⟩ : Shape).Idx → EReal) (b : (⟨2, ![n, 1]⟩ : Shape).Idx → EReal)
    (i : (⟨2, ![n, f]⟩ : Shape).Idx) : scaleRows a b i = a i * b (ix2 (i 0) (0 : Fin 1)) := rfl

/-- The accelerator's spelling: the product with the column broadcast along the second axis (more than one row). -/
theorem mulf_broadcastTo {n f : Nat} (hn : n ≠ 1) (a : FVec Ideal ⟨2, ![n, f]⟩ .f32) (b : FVec Ideal ⟨2, ![n, 1]⟩ .f32)
    (h : (⟨2, ![n, 1]⟩ : Shape).Broadcasts ⟨2, ![n, f]⟩) :
    mulf a (broadcastTo ⟨2, ![n, f]⟩ b h) = scaleRows a b := by
  funext i
  rw [mulf_apply, scaleRows_apply]
  congr 1
  exact broadcastTo_apply b h i (ix2 (i 0) (0 : Fin 1)) (fun d => match d with
    | ⟨0, _⟩ => by show (i 0).val = if n = 1 then 0 else (i 0).val; rw [if_neg hn]
    | ⟨1, _⟩ => by show (0 : Nat) = if (1 : Nat) = 1 then 0 else (i 1).val; rw [if_pos rfl])

end Cert.Lib.RowScale

end
-- ==== Proof.RefStages.lean ====
/-
  The reference's stages that the kernel's regions compute.

  The reference forms each layer's product with one whole `dot_general` and scales the gathered rows by an elementwise
  product with the per-row factor broadcast along the feature axis.  At the exact values the first is the plain
  matrix product and the second is "row p times factor p".  The reference computes the self-looped index lists and
  the degree normalisation once per layer; the second layer's are the first layer's, operation for operation.
-/
import proofs.«111704_j90881507983627_2_alg».proof.Proof.RefRead
import proofs.«111704_j90881507983627_2_alg».proof.Proof.LibPlainDot
import proofs.«111704_j90881507983627_2_alg».proof.Proof.LibRowScale

noncomputable section

namespace Cert.RefStages

open Idealize.ShloMosaic Idealize.ShloMosaic.ValueIdx
open Cert.ReferenceIdeal Cert.ReferenceIdeal.Read
open Cert.Lib.PlainDot Cert.Lib.RowScale

/-- The first layer's product x · W1. -/
theorem v4_eq_mm (x0 : (⟨S100000x512, .f32⟩ : BufTy).Contents (Elt Ideal)) (x2 : (⟨S512x16, .f32⟩ : BufTy).Contents (Elt Ideal)) :
    val_main_v4 (F := Ideal) x0 x2 = mm (M := 100000) (K := 512) (N := 16) x0 x2 := by
  unfold val_main_v4
  exact dotGeneral none x0 x2

/-- The second layer's product h · W2. -/
theorem v48_eq_mm (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x7, .f32⟩ : BufTy).Contents (Elt Ideal)) :
    val_main_v48 (F := Ideal) x0 x1 x2 x3 x4 = mm (M := 100000) (K := 16) (N := 7) (val_main_v47 (F := Ideal) x0 x1 x2 x3) x4 := by
  unfold val_main_v48
  exact dotGeneral none _ x4

/-- The first layer's messages: each gathered row times its factor. -/
theorem v40_eq_scale (x0 : (⟨S100000x512, .f32⟩ : BufTy).Contents (Elt Ideal)) (x1 : (⟨S2x3200000, .i32⟩ : BufTy).Contents (Elt Ideal))
    (x2 : (⟨S512x16, .f32⟩ : BufTy).Contents (Elt Ideal)) :
    val_main_v40 (F := Ideal) x0 x1 x2
      = scaleRows (n := 3300000) (f := 16) (val_main_v37 (F := Ideal) x0 x1 x2) (val_main_v38 (F := Ideal) x1) := by
  funext i
  rw [val_main_v40_apply, val_main_v39_apply, scaleRows_apply]
  have e : idx_main_v39 i = ix2 (i 0) (0 : Fin 1) :=
    funext fun a => Fin.ext (by match a with | ⟨0, _⟩ => rfl | ⟨1, _⟩ => rfl)
  rw [e]
  rfl

/-- The second layer's messages: each gathered row times its factor. -/
theorem v84_eq_scale (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (x4 : (⟨S16x7, .f32⟩ : BufTy).Contents (Elt Ideal)) :
    val_main_v84 (F := Ideal) x0 x1 x2 x3 x4
      = scaleRows (n := 3300000) (f := 7) (val_main_v81 (F := Ideal) x0 x1 x2 x3 x4) (val_main_v82 (F := Ideal) x1) := by
  funext i
  rw [val_main_v84_apply, val_main_v83_apply, scaleRows_apply]
  have e : idx_main_v83 i = ix2 (i 0) (0 : Fin 1) :=
    funext fun a => Fin.ext (by match a with | ⟨0, _⟩ => rfl | ⟨1, _⟩ => rfl)
  rw [e]
  rfl

/-- The second layer's source list (edges, then self-loops) is the first layer's. -/
theorem v50_eq (x1 : (⟨S2x3200000, .i32⟩ : BufTy).Contents (Elt Ideal)) :
    val_main_v50 (F := Ideal) x1 = val_main_v6 (F := Ideal) x1 := rfl

/-- The second layer's target list is the first layer's. -/
theorem v51_eq (x1 : (⟨S2x3200000, .i32⟩ : BufTy).Contents (Elt Ideal)) :
    val_main_v51 (F := Ideal) x1 = val_main_v7 (F := Ideal) x1 := rfl

/-- The second layer's inverse square root of the degrees (zero where the degree is zero) is the first layer's. -/
theorem v59_eq (x1 : (⟨S2x3200000, .i32⟩ : BufTy).Contents (Elt Ideal)) :
    val_main_v59 (F := Ideal) x1 = val_main_v15 (F := Ideal) x1 := rfl

end Cert.RefStages

end
-- ==== Proof.Reg0.lean ====
/-
  The first product, computed tile by tile, is one whole product.

  Region 0 runs over 50 grid points.  Point t stages rows 2000·t … 2000·t + 1999 of the 100000×512 left operand and
  the whole 512×16 right operand, and writes back the same rows of the 100000×16 output.  Its body forms the matrix
  product of the two staged blocks into a zero accumulator (the change of float format before the product is the
  identity at the exact values).  Row i of a product reads row i of the left operand only, so what point t writes
  back is rows 2000·t … of the whole product; the 50 blocks tile the output, so after the region the output array
  is the whole product of the two arrays as the region found them.
-/
import proofs.«111704_j90881507983627_2_alg».proof.Proof.Gen.KernelIdeal.Frame
import proofs.«111704_j90881507983627_2_alg».proof.Proof.LibPlainDot
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

/-- An entry of an array of floats, at the exact values, is an extended real. -/
abbrev asReal (x : EReal) : EReal := x

theorem zero_offsets : (![0, 0] : Fin 2 → Nat) = fun _ => 0 := funext fun a => by fin_cases a <;> rfl

/-- The body's stored value is the product of its two loaded blocks. -/
theorem payload_eq (x0 : Vec Ideal S2000x512 .f32) (x1 : Vec Ideal S512x16 .f32) :
    k0_pay1 (F := Ideal) x0 x1 = mm x0 x1 := by
  unfold k0_pay1
  dsimp only
  exact matmul_zero none x0 x1

/-- The index maps over the grid: the left operand's and the output's block row is the point, every other block
    index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x16) zero_offsets]
  rw [payload_eq]
  obtain ⟨e0, e1, e2, e3, e4, e5⟩ := index_facts t
  funext j
  show ∑ k : Fin 512, asReal (V c main_arg0 (((cfg0.win 0).blk t).view.emb (ix2 (j 0) k))) * asReal (V c main_arg2 (((cfg0.win 1).blk t).view.emb (ix2 k (j 1))))
     = ∑ k : Fin 512, asReal (V c main_arg0 (ix2 ((((cfg0.win 2).blk t).view.emb j) 0) k)) * asReal (V c main_arg2 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [h0, h1]
  rfl

/-- An index of the output array is in point `t`'s block iff each coordinate is in the block's range. -/
theorem mem_block (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v15).slice (win0_2.rect t)).set ↔ _
  rw [View.set_slice_whole, Rect.mem_set_unit]
  exact Iff.rfl

/-- Row `r` of the output is in the block of point `r / 2000`. -/
theorem covered (i : S100000x16.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 16 := (i 1).isLt
  have ht : (i 0).val / 2000 < cfg0.N := by rw [hN]; omega
  refine ⟨⟨(i 0).val / 2000, ht⟩, flush0_2 _, ?_⟩
  rw [mem_block]
  obtain ⟨e0, e1, e2, e3, e4, e5⟩ := index_facts ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 16 ≤ (i 1).val ∧ (i 1).val < win0_2.index ⟨(i 0).val / 2000, ht⟩ (1 : Fin 2) * 16 + 16
    rw [e5]; omega

/-- After the region the output array is the whole product of the arrays the region found. -/
theorem final (c : Dev nD) : (dat0 V c).arrAt 2 cfg0.N = mm (V c main_arg0) (V c main_arg2) :=
  (dat0 V c).arrAt_eq_of_cover 2 (mm (V c main_arg0) (V c main_arg2)) (fun t _ => flushed_eq V c t) covered

end Cert.KernelIdeal.Reg0

end
-- ==== Proof.LibHostLine.lean ====
/-
  Reading a long straight line of host operations back as one function.

  The contents of a buffer after a line of operations is a fold: each operation rewrites the buffers it writes and
  leaves the rest.  Two facts make a line of several hundred operations readable in one pass.

  * `after_append`: the fold over a concatenation is the fold over the second list started from what the first
    left — so a line may be stated in pieces and still read as a whole.

  * `cast_same`: an operation inside an outlined function is stated at the type of the tensor value and moved to
    its buffer's own type along an equation between the two types; for a literal buffer the two types are the same
    type, and the transport is the identity.  Stated as a propositional equation (not unfolded), it lets one
    rewriting pass strip every such transport from the composed term, after which the term is, operation for
    operation, the specification's term and the two are compared structurally.

  Recipe, for a goal  `after <literal list> W b = spec (W a₁) … (W aₙ)`  over any contents `W`: expose the list's
  conses, rewrite every operation's result at its own buffer and skip it at any other (the library's one-pass
  result rewriting), rewrite with `cast_same`, and close by reflexivity — the specification's definitions unfold by
  themselves.
-/
import Idealize.ShloMosaic.Lib.StableHlo.Run

noncomputable section

namespace Cert.Lib.HostLine

open Idealize.ShloMosaic Idealize.ShloMosaic.StableHlo

variable {τ : Topo} {sig : RefSig} {Val : EltTy → Type}

/-- Running two lists one after the other is running the first, then the second from what it left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Transport along an equation of a type with itself is the identity. -/
theorem cast_same {α : Type} (h : α = α) (a : α) : cast h a = a := eq_of_heq (cast_heq h a)

end Cert.Lib.HostLine

end
-- ==== Proof.ChainA.lean ====
/-
  The kernel's program up to the end of its first region.

  Before the first region the host forms the source and target lists with the self-loops appended, the degree of
  every node as a scatter-add of ones, and its inverse square root (zero where the degree is zero).  These are the
  reference's own operations on the same argument, so each buffer holds the reference's stage.  The first region
  leaves the whole product x · W1 in its output and every other buffer as it found it.
-/
import proofs.«111704_j90881507983627_2_alg».proof.Proof.Gen.KernelIdeal.Frame
import proofs.«111704_j90881507983627_2_alg».proof.Proof.RefRead
import proofs.«111704_j90881507983627_2_alg».proof.Proof.RefStages
import proofs.«111704_j90881507983627_2_alg».proof.Proof.Reg0
import proofs.«111704_j90881507983627_2_alg».proof.Proof.LibHostLine

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.ReferenceIdeal.Read

variable (m : (ℓ : Loc nD τ sig) → Buf (Elt Ideal) ℓ) (ρ : Dev nD → PrngReg) (c : Dev nD)

/-! ## At the first region's entry -/

/-- The source list with the self-loops appended. -/
theorem W2_v5 : W2 m ρ c (Proc.devRef .tc main_v5) = val_main_v6 (F := Ideal) (m ((c.tc : Thread nD τ).loc main_arg1)) := by
  show StableHlo.after hostOps0_1 (StableHlo.after hostOps0 (W0 m ρ c)) (Proc.devRef .tc main_v5) = _
  after_results_simp
  rfl

/-- The target list with the self-loops appended. -/
theorem W2_v6 : W2 m ρ c (Proc.devRef .tc main_v6) = val_main_v7 (F := Ideal) (m ((c.tc : Thread nD τ).loc main_arg1)) := by
  show StableHlo.after hostOps0_1 (StableHlo.after hostOps0 (W0 m ρ c)) (Proc.devRef .tc main_v6) = _
  after_results_simp
  rfl

set_option maxHeartbeats 4000000 in
/-- The inverse square root of the degrees, zero where the degree is zero.  (The selection between the root and zero
    is an outlined function; its operations are stated at the tensor values' types and moved to the buffers' along
    equations of a type with itself, which are the identity.) -/
theorem W2_v14 : W2 m ρ c (Proc.devRef .tc main_v14) = val_main_v15 (F := Ideal) (m ((c.tc : Thread nD τ).loc main_arg1)) := by
  show StableHlo.after hostOps0_1 (StableHlo.after hostOps0 (W0 m ρ c)) (Proc.devRef .tc main_v14) = _
  after_results
  simp only [Cert.Lib.HostLine.cast_same]
  rfl

/-- No host operation before the first region writes an argument. -/
theorem W2_arg (b : Ref sig .tc) (hb : b = main_arg0 ∨ b = main_arg2 ∨ b = main_arg3 ∨ b = main_arg4 ∨ b = main_arg5) :
    W2 m ρ c (Proc.devRef .tc b) = m ((c.tc : Thread nD τ).loc b) := by
  rcases hb with rfl | rfl | rfl | rfl | rfl <;>
  · show StableHlo.after hostOps0_1 (StableHlo.after hostOps0 (W0 m ρ c)) (Proc.devRef .tc _) = _
    after_results_simp <;> rfl

/-! ## At the first region's exit -/

/-- The first region's output: the whole product x · W1. -/
theorem W3_v15 : W3 m ρ c (Proc.devRef .tc main_v15) = val_main_v4 (F := Ideal) (m ((c.tc : Thread nD τ).loc main_arg0)) (m ((c.tc : Thread nD τ).loc main_arg2)) := by
  refine (W3_arr m ρ c 2).trans ((Reg0.final (V2 m ρ) c).trans ?_)
  rw [Cert.RefStages.v4_eq_mm]
  show Cert.Lib.PlainDot.mm (W2 m ρ c (Proc.devRef .tc main_arg0)) (W2 m ρ c (Proc.devRef .tc main_arg2)) = _
  rw [W2_arg m ρ c main_arg0 (Or.inl rfl), W2_arg m ρ c main_arg2 (Or.inr (Or.inl rfl))]

theorem W3_v5 : W3 m ρ c (Proc.devRef .tc main_v5) = val_main_v6 (F := Ideal) (m ((c.tc : Thread nD τ).loc main_arg1)) :=
  (W3_of_ne m ρ c main_v5 (by decide)).trans (W2_v5 m ρ c)

theorem W3_v6 : W3 m ρ c (Proc.devRef .tc main_v6) = val_main_v7 (F := Ideal) (m ((c.tc : Thread nD τ).loc main_arg1)) :=
  (W3_of_ne m ρ c main_v6 (by decide)).trans (W2_v6 m ρ c)

theorem W3_v14 : W3 m ρ c (Proc.devRef .tc main_v14) = val_main_v15 (F := Ideal) (m ((c.tc : Thread nD τ).loc main_arg1)) :=
  (W3_of_ne m ρ c main_v14 (by decide)).trans (W2_v14 m ρ c)

theorem W3_arg (b : Ref sig .tc) (hb : b = main_arg3 ∨ b = main_arg4 ∨ b = main_arg5) :
    W3 m ρ c (Proc.devRef .tc b) = m ((c.tc : Thread nD τ).loc b) := by
  rcases hb with rfl | rfl | rfl
  · exact (W3_of_ne m ρ c main_arg3 (by decide)).trans (W2_arg m ρ c main_arg3 (.inr (.inr (.inl rfl))))
  · exact (W3_of_ne m ρ c main_arg4 (by decide)).trans (W2_arg m ρ c main_arg4 (.inr (.inr (.inr (.inl rfl)))))
  · exact (W3_of_ne m ρ c main_arg5 (by decide)).trans (W2_arg m ρ c main_arg5 (.inr (.inr (.inr (.inr rfl)))))

end Cert.KernelIdeal.Chain

end
-- ==== Proof.Reg1.lean ====
/-
  The first scaling of gathered rows, computed tile by tile, is one whole scaling.

  Region 1 runs over 825 grid points.  Point t stages rows 4000·t … 4000·t + 3999 of the 3300000×16 array of gathered rows
  and of the 3300000×1 column of per-row factors, and writes back the same rows of the 3300000×16 output.  Its body multiplies
  every row of the block by that row's factor.  Entry (p, q) of the result reads row p of both operands only, so
  what point t writes back is rows 4000·t … of the whole scaled array; the 825 blocks tile the output, so after the
  region the output array is the array of rows as the region found them, each scaled by its factor.
-/
import proofs.«111704_j90881507983627_2_alg».proof.Proof.Gen.KernelIdeal.Frame
import proofs.«111704_j90881507983627_2_alg».proof.Proof.LibRowScale
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowScale

variable (V : (c : Dev nD) → (b : Ref sig .tc) → Buf (Elt Ideal) ((c : Thread nD τ).loc b))

/-- An entry of an array of floats, at the exact values, is an extended real. -/
abbrev asReal (x : EReal) : EReal := x

theorem zero_offsets : (![0, 0] : Fin 2 → Nat) = fun _ => 0 := funext fun a => by fin_cases a <;> rfl

/-- The body's stored value is its block of rows, each scaled by its factor. -/
theorem payload_eq (x0 : Vec Ideal S4000x16 .f32) (x1 : Vec Ideal S4000x1 .f32) :
    k1_pay1 (F := Ideal) x0 x1 = scaleRows x0 x1 := by
  unfold k1_pay1
  dsimp only
  rw [shapeCast_self, shapeCast_self]
  exact mulf_broadcastTo (by decide) x0 x1 _

/-- The index maps over the grid: every window's block row is the point, its block column zero. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole scaled array. -/
theorem flushed_eq (c : Dev nD) (t : Fin cfg1.N) :
    (dat1 V c).flushed 2 t = ((cfg1.win 2).blk t).view.read (Elt Ideal) (scaleRows (V c main_v22) (V c main_v38)) := by
  show (cfg1.win 2).cut (grid1.coords t) ((dat1 V c).after 2 t) = _
  rw [after1_2]
  unfold out1_2
  rw [View.canon_unit_zero zero_offsets]
  simp only [View.ld_unit_zero (S := S4000x16) zero_offsets, View.ld_unit_zero (S := S4000x1) zero_offsets]
  rw [payload_eq]
  obtain ⟨e0, e1, e2, e3, e4, e5⟩ := index_facts t
  funext j
  show asReal (V c main_v22 (((cfg1.win 0).blk t).view.emb j)) * asReal (V c main_v38 (((cfg1.win 1).blk t).view.emb (ix2 (j 0) (0 : Fin 1))))
     = asReal (V c main_v22 (((cfg1.win 2).blk t).view.emb j)) * asReal (V c main_v38 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega
  rw [h0, h1]
  rfl

/-- An index of the output array is in point `t`'s block iff each coordinate is in the block's range. -/
theorem mem_block (t : Fin cfg1.N) (i : S3300000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v39).slice (win1_2.rect t)).set ↔ _
  rw [View.set_slice_whole, Rect.mem_set_unit]
  exact Iff.rfl

/-- Row `r` of the output is in the block of point `r / 4000`. -/
theorem covered (i : S3300000x16.Idx) :
    ∃ t : Fin cfg1.N, (cfg1.win 2).flush t = true ∧ i ∈ ((cfg1.win 2).blk t).view.set := by
  have hN : cfg1.N = 825 := N_1
  have hi0 : (i 0).val < 3300000 := (i 0).isLt
  have hi1 : (i 1).val < 16 := (i 1).isLt
  have ht : (i 0).val / 4000 < cfg1.N := by rw [hN]; omega
  refine ⟨⟨(i 0).val / 4000, ht⟩, flush1_2 _, ?_⟩
  rw [mem_block]
  obtain ⟨e0, e1, e2, e3, e4, e5⟩ := index_facts ⟨(i 0).val / 4000, ht⟩
  intro a
  match a with
  | ⟨0, _⟩ =>
    show win1_2.index ⟨(i 0).val / 4000, ht⟩ (0 : Fin 2) * 4000 ≤ (i 0).val ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 16 ≤ (i 1).val ∧ (i 1).val < win1_2.index ⟨(i 0).val / 4000, ht⟩ (1 : Fin 2) * 16 + 16
    rw [e5]; omega

/-- After the region the output array is the rows the region found, each scaled by its factor. -/
theorem final (c : Dev nD) : (dat1 V c).arrAt 2 cfg1.N = scaleRows (V c main_v22) (V c main_v38) :=
  (dat1 V c).arrAt_eq_of_cover 2 (scaleRows (V c main_v22) (V c main_v38)) (fun t _ => flushed_eq V c t) covered

end Cert.KernelIdeal.Reg1

end
-- ==== Proof.ChainB.lean ====
/-
  The kernel's program from its first region's exit to its second region's exit.

  The host gathers, for every edge, the source row of x · W1 and the two inverse-root degrees of its endpoints
  (indices below zero wrapped once by the node count), and multiplies the two degrees into the edge's factor.  These
  are the reference's own operations on equal values.  The second region leaves every gathered row scaled by its
  edge's factor: the reference's messages.
-/
import proofs.«111704_j90881507983627_2_alg».proof.Proof.ChainA
import proofs.«111704_j90881507983627_2_alg».proof.Proof.Reg1

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.ReferenceIdeal.Read

variable (m : (ℓ : Loc nD τ sig) → Buf (Elt Ideal) ℓ) (ρ : Dev nD → PrngReg) (c : Dev nD)

/-! ## At the second region's entry -/

/-- The host operations between the first two regions write neither index list, nor the inverse-root degrees, nor
    an argument. -/
theorem W4_keep (b : Ref sig .tc) (hb : b = main_v5 ∨ b = main_v6 ∨ b = main_v14 ∨ b = main_arg3 ∨ b = main_arg4 ∨ b = main_arg5) :
    W4 m ρ c (Proc.devRef .tc b) = W3 m ρ c (Proc.devRef .tc b) := by
  rcases hb with rfl | rfl | rfl | rfl | rfl | rfl <;>
  · show StableHlo.after hostOps1 (W3 m ρ c) (Proc.devRef .tc _) = _
    after_results_simp

set_option maxHeartbeats 4000000 in
/-- The gathered source rows of x · W1. -/
theorem W4_v22 : W4 m ρ c (Proc.devRef .tc main_v22) = val_main_v37 (F := Ideal) (m ((c.tc : Thread nD τ).loc main_arg0)) (m ((c.tc : Thread nD τ).loc main_arg1)) (m ((c.tc : Thread nD τ).loc main_arg2)) := by
  show StableHlo.after hostOps1 (W3 m ρ c) (Proc.devRef .tc main_v22) = _
  after_results_simp
  rw [W3_v15 m ρ c, W3_v5 m ρ c]
  rfl

set_option maxHeartbeats 4000000 in
/-- The per-edge factor, as a column. -/
theorem W4_v38 : W4 m ρ c (Proc.devRef .tc main_v38) = val_main_v38 (F := Ideal) (m ((c.tc : Thread nD τ).loc main_arg1)) := by
  show StableHlo.after hostOps1 (W3 m ρ c) (Proc.devRef .tc main_v38) = _
  after_results_simp
  rw [W3_v5 m ρ c, W3_v6 m ρ c, W3_v14 m ρ c]
  rfl

/-! ## At the second region's exit -/

theorem W5_keep (b : Ref sig .tc) (hb : b = main_v5 ∨ b = main_v6 ∨ b = main_v14 ∨ b = main_arg3 ∨ b = main_arg4 ∨ b = main_arg5) :
    W5 m ρ c (Proc.devRef .tc b) = W4 m ρ c (Proc.devRef .tc b) := by
  rcases hb with rfl | rfl | rfl | rfl | rfl | rfl <;> exact W5_of_ne m ρ c _ (by decide)

/-- The second region's output: the first layer's messages. -/
theorem W5_v39 : W5 m ρ c (Proc.devRef .tc main_v39) = val_main_v40 (F := Ideal) (m ((c.tc : Thread nD τ).loc main_arg0)) (m ((c.tc : Thread nD τ).loc main_arg1)) (m ((c.tc : Thread nD τ).loc main_arg2)) := by
  refine (W5_arr m ρ c 2).trans ((Reg1.final (V4 m ρ) c).trans ?_)
  rw [Cert.RefStages.v40_eq_scale]
  show Cert.Lib.RowScale.scaleRows (W4 m ρ c (Proc.devRef .tc main_v22)) (W4 m ρ c (Proc.devRef .tc main_v38)) = _
  rw [W4_v22 m ρ c, W4_v38 m ρ c]

theorem W5_v5 : W5 m ρ c (Proc.devRef .tc main_v5) = val_main_v6 (F := Ideal) (m ((c.tc : Thread nD τ).loc main_arg1)) :=
  (W5_keep m ρ c main_v5 (.inl rfl)).trans ((W4_keep m ρ c main_v5 (.inl rfl)).trans (W3_v5 m ρ c))
theorem W5_v6 : W5 m ρ c (Proc.devRef .tc main_v6) = val_main_v7 (F := Ideal) (m ((c.tc : Thread nD τ).loc main_arg1)) :=
  (W5_keep m ρ c main_v6 (.inr (.inl rfl))).trans ((W4_keep m ρ c main_v6 (.inr (.inl rfl))).trans (W3_v6 m ρ c))
theorem W5_v14 : W5 m ρ c (Proc.devRef .tc main_v14) = val_main_v15 (F := Ideal) (m ((c.tc : Thread nD τ).loc main_arg1)) :=
  (W5_keep m ρ c main_v14 (.inr (.inr (.inl rfl)))).trans ((W4_keep m ρ c main_v14 (.inr (.inr (.inl rfl)))).trans (W3_v14 m ρ c))
theorem W5_arg3 : W5 m ρ c (Proc.devRef .tc main_arg3) = (m ((c.tc : Thread nD τ).loc main_arg3)) :=
  (W5_keep m ρ c main_arg3 (.inr (.inr (.inr (.inl rfl))))).trans ((W4_keep m ρ c main_arg3 (.inr (.inr (.inr (.inl rfl))))).trans (W3_arg m ρ c main_arg3 (.inl rfl)))
theorem W5_arg4 : W5 m ρ c (Proc.devRef .tc main_arg4) = (m ((c.tc : Thread nD τ).loc main_arg4)) :=
  (W5_keep m ρ c main_arg4 (.inr (.inr (.inr (.inr (.inl rfl)))))).trans ((W4_keep m ρ c main_arg4 (.inr (.inr (.inr (.inr (.inl rfl)))))).trans (W3_arg m ρ c main_arg4 (.inr (.inl rfl))))
theorem W5_arg5 : W5 m ρ c (Proc.devRef .tc main_arg5) = (m ((c.tc : Thread nD τ).loc main_arg5)) :=
  (W5_keep m ρ c main_arg5 (.inr (.inr (.inr (.inr (.inr rfl)))))).trans ((W4_keep m ρ c main_arg5 (.inr (.inr (.inr (.inr (.inr rfl)))))).trans (W3_arg m ρ c main_arg5 (.inr (.inr rfl))))

end Cert.KernelIdeal.Chain

end
-- ==== Proof.Reg2.lean ====
/-
  The second product, computed tile by tile, is one whole product.

  Region 2 runs over 10 grid points.  Point t stages rows 10000·t … 10000·t + 9999 of the 100000×16 left operand and
  the whole 16×7 right operand, and writes back the same rows of the 100000×7 output.  Its body forms the matrix
  product of the two staged blocks into a zero accumulator (the change of float format before the product is the
  identity at the exact values).  Row i of a product reads row i of the left operand only, so what point t writes
  back is rows 10000·t … of the whole product; the 10 blocks tile the output, so after the region the output array
  is the whole product of the two arrays as the region found them.
-/
import proofs.«111704_j90881507983627_2_alg».proof.Proof.Gen.KernelIdeal.Frame
import proofs.«111704_j90881507983627_2_alg».proof.Proof.LibPlainDot
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.PlainDot

variable (V : (c : Dev nD) → (b : Ref sig .tc) → Buf (Elt Ideal) ((c : Thread nD τ).loc b))

/-- An entry of an array of floats, at the exact values, is an extended real. -/
abbrev asReal (x : EReal) : EReal := x

theorem zero_offsets : (![0, 0] : Fin 2 → Nat) = fun _ => 0 := funext fun a => by fin_cases a <;> rfl

/-- The body's stored value is the product of its two loaded blocks. -/
theorem payload_eq (x0 : Vec Ideal S10000x16 .f32) (x1 : Vec Ideal S16x7 .f32) :
    k2_pay1 (F := Ideal) x0 x1 = mm x0 x1 := by
  unfold k2_pay1
  dsimp only
  rw [shapeCast_self]
  exact matmul_zero none x0 x1

/-- The index maps over the grid: the left operand's and the output's block row is the point, every other block
    index is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (mm (V c main_v46) (V c main_arg4)) := by
  show (cfg2.win 2).cut (grid2.coords t) ((dat2 V c).after 2 t) = _
  rw [after2_2]
  unfold out2_2
  rw [View.canon_unit_zero zero_offsets]
  simp only [View.ld_unit_zero (S := S10000x16) zero_offsets, View.ld_unit_zero (S := S16x7) zero_offsets]
  rw [payload_eq]
  obtain ⟨e0, e1, e2, e3, e4, e5⟩ := index_facts t
  funext j
  show ∑ k : Fin 16, asReal (V c main_v46 (((cfg2.win 0).blk t).view.emb (ix2 (j 0) k))) * asReal (V c main_arg4 (((cfg2.win 1).blk t).view.emb (ix2 k (j 1))))
     = ∑ k : Fin 16, asReal (V c main_v46 (ix2 ((((cfg2.win 2).blk t).view.emb j) 0) k)) * asReal (V c main_arg4 (ix2 k ((((cfg2.win 2).blk t).view.emb j) 1)))
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 16 + 1 * k.val = k.val; omega
    | ⟨1, _⟩ => show win2_1.index t (1 : Fin 2) * 7 + 1 * (j 1).val = win2_2.index t (1 : Fin 2) * 7 + 1 * (j 1).val; omega
  rw [h0, h1]
  rfl

/-- An index of the output array is in point `t`'s block iff each coordinate is in the block's range. -/
theorem mem_block (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v47).slice (win2_2.rect t)).set ↔ _
  rw [View.set_slice_whole, Rect.mem_set_unit]
  exact Iff.rfl

/-- Row `r` of the output is in the block of point `r / 10000`. -/
theorem covered (i : S100000x7.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 7 := (i 1).isLt
  have ht : (i 0).val / 10000 < cfg2.N := by rw [hN]; omega
  refine ⟨⟨(i 0).val / 10000, ht⟩, flush2_2 _, ?_⟩
  rw [mem_block]
  obtain ⟨e0, e1, e2, e3, e4, e5⟩ := index_facts ⟨(i 0).val / 10000, ht⟩
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 7 ≤ (i 1).val ∧ (i 1).val < win2_2.index ⟨(i 0).val / 10000, ht⟩ (1 : Fin 2) * 7 + 7
    rw [e5]; omega

/-- After the region the output array is the whole product of the arrays the region found. -/
theorem final (c : Dev nD) : (dat2 V c).arrAt 2 cfg2.N = mm (V c main_v46) (V c main_arg4) :=
  (dat2 V c).arrAt_eq_of_cover 2 (mm (V c main_v46) (V c main_arg4)) (fun t _ => flushed_eq V c t) covered

end Cert.KernelIdeal.Reg2

end
-- ==== Proof.ChainC.lean ====
/-
  The kernel's program from its second region's exit to its third region's exit.

  The host adds every message into its target node's row (a scatter-add into zeros), adds the first bias and takes the
  maximum with zero: the reference's hidden layer, by the reference's own operations on equal values.  The third
  region leaves the whole product of the hidden layer with W2.
-/
import proofs.«111704_j90881507983627_2_alg».proof.Proof.ChainB
import proofs.«111704_j90881507983627_2_alg».proof.Proof.Reg2

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.ReferenceIdeal.Read

variable (m : (ℓ : Loc nD τ sig) → Buf (Elt Ideal) ℓ) (ρ : Dev nD → PrngReg) (c : Dev nD)

/-! ## At the third region's entry -/

theorem W7_keep (b : Ref sig .tc) (hb : b = main_v5 ∨ b = main_v6 ∨ b = main_v14 ∨ b = main_arg4 ∨ b = main_arg5) :
    W7 m ρ c (Proc.devRef .tc b) = W5 m ρ c (Proc.devRef .tc b) := by
  rcases hb with rfl | rfl | rfl | rfl | rfl <;>
  · show StableHlo.after hostOps2_1 (StableHlo.after hostOps2 (W5 m ρ c)) (Proc.devRef .tc _) = _
    after_results_simp

set_option maxHeartbeats 4000000 in
/-- The hidden layer: the aggregated messages plus the bias, negatives cut to zero. -/
theorem W7_v46 : W7 m ρ c (Proc.devRef .tc main_v46) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2_1 (StableHlo.after hostOps2 (W5 m ρ c)) (Proc.devRef .tc main_v46) = _
  after_results_simp
  simp only [Cert.Lib.HostLine.cast_same]
  rw [W5_v39 m ρ c, W5_v6 m ρ c, W5_arg3 m ρ c]
  rfl

theorem W7_arg4 : W7 m ρ c (Proc.devRef .tc main_arg4) = (m ((c.tc : Thread nD τ).loc main_arg4)) :=
  (W7_keep m ρ c main_arg4 (.inr (.inr (.inr (.inl rfl))))).trans (W5_arg4 m ρ c)

/-! ## At the third region's exit -/

/-- The third region's arrays are the hidden layer, W2 and its output; every other buffer is as the region found it. -/
theorem W8_keep (b : Ref sig .tc) (hb : b = main_v5 ∨ b = main_v6 ∨ b = main_v14 ∨ b = main_arg5) :
    W8 m ρ c (Proc.devRef .tc b) = W7 m ρ c (Proc.devRef .tc b) := by
  rcases hb with rfl | rfl | rfl | rfl <;> exact W8_of_ne m ρ c _ (by decide)

/-- The third region's output: the whole product of the hidden layer with W2. -/
theorem W8_v47 : W8 m ρ c (Proc.devRef .tc main_v47) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ((Reg2.final (V7 m ρ) c).trans ?_)
  rw [Cert.RefStages.v48_eq_mm]
  show Cert.Lib.PlainDot.mm (W7 m ρ c (Proc.devRef .tc main_v46)) (W7 m ρ c (Proc.devRef .tc main_arg4)) = _
  rw [W7_v46 m ρ c, W7_arg4 m ρ c]

theorem W8_v5 : W8 m ρ c (Proc.devRef .tc main_v5) = val_main_v6 (F := Ideal) (m ((c.tc : Thread nD τ).loc main_arg1)) :=
  (W8_keep m ρ c main_v5 (.inl rfl)).trans ((W7_keep m ρ c main_v5 (.inl rfl)).trans (W5_v5 m ρ c))
theorem W8_v6 : W8 m ρ c (Proc.devRef .tc main_v6) = val_main_v7 (F := Ideal) (m ((c.tc : Thread nD τ).loc main_arg1)) :=
  (W8_keep m ρ c main_v6 (.inr (.inl rfl))).trans ((W7_keep m ρ c main_v6 (.inr (.inl rfl))).trans (W5_v6 m ρ c))
theorem W8_v14 : W8 m ρ c (Proc.devRef .tc main_v14) = val_main_v15 (F := Ideal) (m ((c.tc : Thread nD τ).loc main_arg1)) :=
  (W8_keep m ρ c main_v14 (.inr (.inr (.inl rfl)))).trans ((W7_keep m ρ c main_v14 (.inr (.inr (.inl rfl)))).trans (W5_v14 m ρ c))
theorem W8_arg5 : W8 m ρ c (Proc.devRef .tc main_arg5) = (m ((c.tc : Thread nD τ).loc main_arg5)) :=
  (W8_keep m ρ c main_arg5 (.inr (.inr (.inr rfl)))).trans ((W7_keep m ρ c main_arg5 (.inr (.inr (.inr (.inr rfl))))).trans (W5_arg5 m ρ c))

end Cert.KernelIdeal.Chain

end
-- ==== Proof.Reg3.lean ====
/-
  The second scaling of gathered rows, computed tile by tile, is one whole scaling.

  Region 3 runs over 825 grid points.  Point t stages rows 4000·t … 4000·t + 3999 of the 3300000×7 array of gathered rows
  and of the 3300000×1 column of per-row factors, and writes back the same rows of the 3300000×7 output.  Its body multiplies
  every row of the block by that row's factor.  Entry (p, q) of the result reads row p of both operands only, so
  what point t writes back is rows 4000·t … of the whole scaled array; the 825 blocks tile the output, so after the
  region the output array is the array of rows as the region found them, each scaled by its factor.
-/
import proofs.«111704_j90881507983627_2_alg».proof.Proof.Gen.KernelIdeal.Frame
import proofs.«111704_j90881507983627_2_alg».proof.Proof.LibRowScale
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowScale

variable (V : (c : Dev nD) → (b : Ref sig .tc) → Buf (Elt Ideal) ((c : Thread nD τ).loc b))

/-- An entry of an array of floats, at the exact values, is an extended real. -/
abbrev asReal (x : EReal) : EReal := x

theorem zero_offsets : (![0, 0] : Fin 2 → Nat) = fun _ => 0 := funext fun a => by fin_cases a <;> rfl

/-- The body's stored value is its block of rows, each scaled by its factor. -/
theorem payload_eq (x0 : Vec Ideal S4000x7 .f32) (x1 : Vec Ideal S4000x1 .f32) :
    k3_pay1 (F := Ideal) x0 x1 = scaleRows x0 x1 := by
  unfold k3_pay1
  dsimp only
  rw [shapeCast_self, shapeCast_self]
  exact mulf_broadcastTo (by decide) x0 x1 _

/-- The index maps over the grid: every window's block row is the point, its block column zero. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole scaled array. -/
theorem flushed_eq (c : Dev nD) (t : Fin cfg3.N) :
    (dat3 V c).flushed 2 t = ((cfg3.win 2).blk t).view.read (Elt Ideal) (scaleRows (V c main_v54) (V c main_v70)) := by
  show (cfg3.win 2).cut (grid3.coords t) ((dat3 V c).after 2 t) = _
  rw [after3_2]
  unfold out3_2
  rw [View.canon_unit_zero zero_offsets]
  simp only [View.ld_unit_zero (S := S4000x7) zero_offsets, View.ld_unit_zero (S := S4000x1) zero_offsets]
  rw [payload_eq]
  obtain ⟨e0, e1, e2, e3, e4, e5⟩ := index_facts t
  funext j
  show asReal (V c main_v54 (((cfg3.win 0).blk t).view.emb j)) * asReal (V c main_v70 (((cfg3.win 1).blk t).view.emb (ix2 (j 0) (0 : Fin 1))))
     = asReal (V c main_v54 (((cfg3.win 2).blk t).view.emb j)) * asReal (V c main_v70 (ix2 ((((cfg3.win 2).blk t).view.emb j) 0) (0 : Fin 1)))
  have h0 : ((cfg3.win 0).blk t).view.emb j = ((cfg3.win 2).blk t).view.emb j := by
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 7 + 1 * (j 1).val = win3_2.index t (1 : Fin 2) * 7 + 1 * (j 1).val; omega
  have h1 : ((cfg3.win 1).blk t).view.emb (ix2 (j 0) (0 : Fin 1)) = ix2 ((((cfg3.win 2).blk t).view.emb j) 0) (0 : Fin 1) := by
    funext a; apply Fin.ext
    match a with
    | ⟨0, _⟩ => show win3_1.index t (0 : Fin 2) * 4000 + 1 * (j 0).val = win3_2.index t (0 : Fin 2) * 4000 + 1 * (j 0).val; omega
    | ⟨1, _⟩ => show win3_1.index t (1 : Fin 2) * 1 + 1 * 0 = 0; omega
  rw [h0, h1]
  rfl

/-- An index of the output array is in point `t`'s block iff each coordinate is in the block's range. -/
theorem mem_block (t : Fin cfg3.N) (i : S3300000x7.Idx) :
    i ∈ ((cfg3.win 2).blk t).view.set ↔ ∀ a : Fin 2, win3_2.index t a * S4000x7.size a ≤ (i a).val ∧ (i a).val < win3_2.index t a * S4000x7.size a + S4000x7.size a := by
  show i ∈ ((View.whole main_v71).slice (win3_2.rect t)).set ↔ _
  rw [View.set_slice_whole, Rect.mem_set_unit]
  exact Iff.rfl

/-- Row `r` of the output is in the block of point `r / 4000`. -/
theorem covered (i : S3300000x7.Idx) :
    ∃ t : Fin cfg3.N, (cfg3.win 2).flush t = true ∧ i ∈ ((cfg3.win 2).blk t).view.set := by
  have hN : cfg3.N = 825 := N_3
  have hi0 : (i 0).val < 3300000 := (i 0).isLt
  have hi1 : (i 1).val < 7 := (i 1).isLt
  have ht : (i 0).val / 4000 < cfg3.N := by rw [hN]; omega
  refine ⟨⟨(i 0).val / 4000, ht⟩, flush3_2 _, ?_⟩
  rw [mem_block]
  obtain ⟨e0, e1, e2, e3, e4, e5⟩ := index_facts ⟨(i 0).val / 4000, ht⟩
  intro a
  match a with
  | ⟨0, _⟩ =>
    show win3_2.index ⟨(i 0).val / 4000, ht⟩ (0 : Fin 2) * 4000 ≤ (i 0).val ∧ (i 0).val < win3_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, ht⟩ (1 : Fin 2) * 7 ≤ (i 1).val ∧ (i 1).val < win3_2.index ⟨(i 0).val / 4000, ht⟩ (1 : Fin 2) * 7 + 7
    rw [e5]; omega

/-- After the region the output array is the rows the region found, each scaled by its factor. -/
theorem final (c : Dev nD) : (dat3 V c).arrAt 2 cfg3.N = scaleRows (V c main_v54) (V c main_v70) :=
  (dat3 V c).arrAt_eq_of_cover 2 (scaleRows (V c main_v54) (V c main_v70)) (fun t _ => flushed_eq V c t) covered

end Cert.KernelIdeal.Reg3

end
-- ==== Proof.ChainD.lean ====
/-
  The kernel's program from its third region's exit to its return.

  The second layer repeats the first on the 7-wide product: gather the source rows and the two inverse-root degrees,
  scale (the fourth region), add every message into its target row, add the second bias.  The reference recomputes
  the index lists and the inverse-root degrees for its second layer; they are the first layer's.  So the result
  buffer ends at the reference's result, as a function of the six arguments.
-/
import proofs.«111704_j90881507983627_2_alg».proof.Proof.ChainC
import proofs.«111704_j90881507983627_2_alg».proof.Proof.Reg3

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem
open Cert.ReferenceIdeal.Read

variable (m : (ℓ : Loc nD τ sig) → Buf (Elt Ideal) ℓ) (ρ : Dev nD → PrngReg) (c : Dev nD)

/-! ## At the fourth region's entry -/

theorem W9_keep (b : Ref sig .tc) (hb : b = main_v6 ∨ b = main_arg5) :
    W9 m ρ c (Proc.devRef .tc b) = W8 m ρ c (Proc.devRef .tc b) := by
  rcases hb with rfl | rfl <;>
  · show StableHlo.after hostOps3 (W8 m ρ c) (Proc.devRef .tc _) = _
    after_results_simp

set_option maxHeartbeats 4000000 in
/-- The gathered source rows of the second product. -/
theorem W9_v54 : W9 m ρ c (Proc.devRef .tc main_v54) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W8 m ρ c) (Proc.devRef .tc main_v54) = _
  after_results_simp
  rw [W8_v47 m ρ c, W8_v5 m ρ c, ← Cert.RefStages.v50_eq]
  rfl

set_option maxHeartbeats 4000000 in
/-- The per-edge factor, as a column, for the second layer. -/
theorem W9_v70 : W9 m ρ c (Proc.devRef .tc main_v70) = val_main_v82 (F := Ideal) (m ((c.tc : Thread nD τ).loc main_arg1)) := by
  show StableHlo.after hostOps3 (W8 m ρ c) (Proc.devRef .tc main_v70) = _
  after_results_simp
  rw [W8_v5 m ρ c, W8_v6 m ρ c, W8_v14 m ρ c, ← Cert.RefStages.v50_eq, ← Cert.RefStages.v51_eq, ← Cert.RefStages.v59_eq]
  rfl

/-! ## At the fourth region's exit -/

theorem W10_keep (b : Ref sig .tc) (hb : b = main_v6 ∨ b = main_arg5) :
    W10 m ρ c (Proc.devRef .tc b) = W9 m ρ c (Proc.devRef .tc b) := by
  rcases hb with rfl | rfl <;> exact W10_of_ne m ρ c _ (by decide)

/-- The fourth region's output: the second layer's messages. -/
theorem W10_v71 : W10 m ρ c (Proc.devRef .tc main_v71) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W10_arr m ρ c 2).trans ((Reg3.final (V9 m ρ) c).trans ?_)
  rw [Cert.RefStages.v84_eq_scale]
  show Cert.Lib.RowScale.scaleRows (W9 m ρ c (Proc.devRef .tc main_v54)) (W9 m ρ c (Proc.devRef .tc main_v70)) = _
  rw [W9_v54 m ρ c, W9_v70 m ρ c]

theorem W10_v6 : W10 m ρ c (Proc.devRef .tc main_v6) = val_main_v51 (F := Ideal) (m ((c.tc : Thread nD τ).loc main_arg1)) :=
  (W10_keep m ρ c main_v6 (.inl rfl)).trans ((W9_keep m ρ c main_v6 (.inl rfl)).trans ((W8_v6 m ρ c).trans (Cert.RefStages.v51_eq _).symm))
theorem W10_arg5 : W10 m ρ c (Proc.devRef .tc main_arg5) = (m ((c.tc : Thread nD τ).loc main_arg5)) :=
  (W10_keep m ρ c main_arg5 (.inr rfl)).trans ((W9_keep m ρ c main_arg5 (.inr rfl)).trans (W8_arg5 m ρ c))

/-! ## At the return -/

set_option maxHeartbeats 4000000 in
/-- THE KERNEL'S RESULT: the result buffer ends at the reference's last stage of the six arguments. -/
theorem result_eq : W11 m ρ c (Proc.devRef .tc main_v77) = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps4 (W10 m ρ c) (Proc.devRef .tc main_v77) = _
  after_results_simp
  rw [W10_v71 m ρ c, W10_v6 m ρ c, W10_arg5 m ρ c]
  rfl

end Cert.KernelIdeal.Chain

end
-- ==== Proof.lean ====
/-
  A two-layer graph convolution, computed with four accelerator regions, against its plain reference.

  Both programs compute, for node features x, an edge list (s, d) with a self-loop appended for every node, and
  weights W1, b1, W2, b2:
      deg = number of edges into each node,   dinv = deg^(-1/2) (zero where deg = 0),
      layer (h, W, b) = scatter-add over edges e of  (h · W)[s e] · (dinv[s e] · dinv[d e])  into row d e,  plus b,
      result = layer (max (layer (x, W1, b1), 0), W2, b2).
  The reference forms each product h · W with one whole matrix product and scales the gathered rows on the host; the
  kernel forms each product tile by tile over the rows in a region (after a change of float format that is the
  identity at the exact values) and scales the gathered rows tile by tile in another region; everything else — the
  index lists, the degrees, the gathers, the scatter-adds, the biases and the rectifier — is the same host
  operations in both.  At the exact values a product computed over row tiles is the whole product, because row i of a
  product reads row i of the left operand only, and rows scaled tile by tile are the rows scaled, for the same reason;
  so every buffer of the kernel's program holds the reference's stage of the same arguments, and the results are
  equal entry by entry.  No law of arithmetic is used beyond these two localities, and finiteness of the inputs is
  not needed.

  The kernel's idealization rewrote no operation, so it preserves the kernel trivially.  The three frames are the
  generated frame runs of the two kernel programs and the reference's run with its result dropped.
-/
import proofs.«111704_j90881507983627_2_alg».proof.Defs
import proofs.«111704_j90881507983627_2_alg».proof.Proof.Gen.Kernel
import proofs.«111704_j90881507983627_2_alg».proof.Proof.Gen.Kernel.Skeleton
import proofs.«111704_j90881507983627_2_alg».proof.Proof.Gen.Kernel.Launch
import proofs.«111704_j90881507983627_2_alg».proof.Proof.Gen.Kernel.Points
import proofs.«111704_j90881507983627_2_alg».proof.Proof.Gen.Kernel.Frame
import proofs.«111704_j90881507983627_2_alg».proof.Proof.Gen.KernelIdeal
import proofs.«111704_j90881507983627_2_alg».proof.Proof.Gen.KernelIdeal.Skeleton
import proofs.«111704_j90881507983627_2_alg».proof.Proof.Gen.KernelIdeal.Launch
import proofs.«111704_j90881507983627_2_alg».proof.Proof.Gen.KernelIdeal.Points
import proofs.«111704_j90881507983627_2_alg».proof.Proof.Gen.KernelIdeal.Frame
import proofs.«111704_j90881507983627_2_alg».proof.Proof.Gen.ReferenceIdeal
import proofs.«111704_j90881507983627_2_alg».proof.Proof.Gen.Pre_finite_inputs
import proofs.«111704_j90881507983627_2_alg».proof.Proof.RefRun
import proofs.«111704_j90881507983627_2_alg».proof.Proof.RefRead
import proofs.«111704_j90881507983627_2_alg».proof.Proof.KRun
import proofs.«111704_j90881507983627_2_alg».proof.Proof.ChainD
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- The idealized kernel runs and leaves its arguments unchanged. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the six arguments both programs end with the same result: the kernel's result buffer
    ends at the reference's last stage of its own arguments, the reference's at the same stage of its own, and the
    arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v90 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.KRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
